-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S512x1024 : Shape := ⟨2, ![512, 1024]⟩
abbrev S1x1024 : Shape := ⟨2, ![1, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibBlockedSum.lean ====
/-
  General lemmas for a contraction that a kernel accumulates block by block along the contracted axis.

  Arrays are read at NATURAL coordinates (their entry inside the extents, zero outside), so that a block's offset
  arithmetic is plain arithmetic on naturals: at2 for a matrix, at1 for a vector, and at2_of_idx / at1_of_idx to pass
  from an entry at an index to the reading at the index's coordinates.

  A sum over 0 .. B n - 1 is the sum, over the n consecutive blocks, of each block's B terms (sum_range_blocks over
  ranges, sum_fin_blocks with the inner and the whole sum over finite index types). Only associativity and
  commutativity of + are used, so the lemmas hold in any commutative additive monoid, in particular on the extended
  reals without any finiteness assumption. blocked_contraction is the form a matrix product with a bias takes:
  accumulated from zero over n blocks of B along the contracted axis, then the bias added, against the whole
  contraction plus the bias.
-/
import Idealize.ShloMosaic.Lib.ValueIdx
import Idealize.ShloMosaic.PureOps.Ideal.Laws

noncomputable section

namespace Cert.BlockedSum

open Idealize.ShloMosaic Idealize.ShloMosaic.ValueIdx

/-- A matrix read at natural coordinates: its entry inside the extents, zero outside. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0

/-- A vector read at a natural coordinate: its entry inside the extent, zero outside. -/
def at1 {n : ℕ} (x : (⟨1, ![n]⟩ : Shape).Idx → EReal) (a : ℕ) : EReal :=
  if h : a < n then x (ix1 ⟨a, h⟩) else 0

/-- An entry of a matrix is its reading at the index's coordinates. -/
theorem at2_of_idx {n0 n1 : ℕ} (x : (⟨2, ![n0, n1]⟩ : Shape).Idx → EReal) (j : (⟨2, ![n0, n1]⟩ : Shape).Idx)
    (a b : ℕ) (ha : (j 0).val = a) (hb : (j 1).val = b) : x j = at2 x a b := by
  subst ha; subst hb
  unfold at2
  rw [dif_pos ⟨idx2_lt0 j, idx2_lt1 j⟩]
  exact congrArg x (eq_ix2 j)

/-- An entry of a vector is its reading at the index's coordinate. -/
theorem at1_of_idx {n : ℕ} (x : (⟨1, ![n]⟩ : Shape).Idx → EReal) (j : (⟨1, ![n]⟩ : Shape).Idx)
    (a : ℕ) (ha : (j 0).val = a) : x j = at1 x a := by
  subst ha
  unfold at1
  rw [dif_pos (show (j 0).val < n from (j 0).isLt)]
  exact congrArg x (eq_ix1 j)

/-- A sum over 0 .. B n - 1 is the sum over n consecutive blocks of B terms each. -/
theorem sum_range_blocks {β : Type*} [AddCommMonoid β] (f : ℕ → β) (B : ℕ) (n : ℕ) :
    ∑ s ∈ Finset.range n, ∑ k ∈ Finset.range B, f (B * s + k) = ∑ k ∈ Finset.range (B * n), f k := by
  induction n with
  | zero => simp
  | succ n ih => rw [Finset.sum_range_succ, ih, Nat.mul_succ, Finset.sum_range_add]

/-- The same with each block and the whole sum over finite index types: N = B n terms as n blocks of B. -/
theorem sum_fin_blocks {β : Type*} [AddCommMonoid β] (f : ℕ → β) (B n N : ℕ) (hN : N = B * n) :
    ∑ s ∈ Finset.range n, ∑ k : Fin B, f (B * s + k.val) = ∑ k : Fin N, f k.val := by
  subst hN
  rw [Fin.sum_univ_eq_sum_range (fun k => f k) (B * n), ← sum_range_blocks f B n]
  exact Finset.sum_congr rfl fun s _ => Fin.sum_univ_eq_sum_range (fun k => f (B * s + k)) B

/-- A contraction over N = B n terms, accumulated from zero in n blocks of B, then the bias added: the whole
    contraction plus the bias. -/
theorem blocked_contraction (X W : ℕ → ℕ → EReal) (b : ℕ → EReal) (p q : ℕ) (B n N : ℕ) (hN : N = B * n) :
    (0 + ∑ s ∈ Finset.range n, ∑ k : Fin B, X p (B * s + k.val) * W (B * s + k.val) q) + b q
      = (∑ k : Fin N, X p k.val * W k.val q) + b q := by
  rw [zero_add]
  exact congrArg (· + b q) (sum_fin_blocks (fun k => X p k * W k q) B n N hN)

end Cert.BlockedSum

end
-- ==== Proof.RefRead.lean ====
/-
  The reference at an index: the whole contraction over the 4096 positions k of x[p, k] * W[k, q], plus bias[q],
  with the arrays read at natural coordinates.
-/
import proofs.«169974_j17927193493896_2_alg».proof.Proof.Gen.ReferenceIdeal.Read
import proofs.«169974_j17927193493896_2_alg».proof.Proof.LibBlockedSum

noncomputable section

namespace Cert.Linear.Ref

open Cert.BlockedSum
open Idealize.ShloMosaic Idealize.ShloMosaic.ValueIdx Cert.ReferenceIdeal Cert.ReferenceIdeal.Gen Cert.ReferenceIdeal.Read

/-- The reference's result at (p, q) is the contraction of row p of x with column q of W, plus the bias at q. -/
theorem result_apply (x0 : FVec Ideal S8192x4096 .f32) (x1 : FVec Ideal S4096x4096 .f32) (x2 : FVec Ideal S4096 .f32)
    (i : S8192x4096.Idx) :
    addf (Host.dotGeneral dot_S8192x4096_S4096x4096_S8192x4096_1_0_0_1_n_n none x0 x1)
        (broadcastInDim S8192x4096 ![0, 1] bcast_S1x4096_S8192x4096_0_1 (broadcastInDim S1x4096 ![1] bcast_S4096_S1x4096_1 x2)) i
      = (∑ k : Fin 4096, at2 (n0 := 8192) (n1 := 4096) x0 (i 0).val k.val * at2 (n0 := 4096) (n1 := 4096) x1 k.val (i 1).val)
        + at1 (n := 4096) x2 (i 1).val := by
  rw [val_main_v3_eq, val_main_v3_apply, val_main_v0_apply, val_main_v2_apply, val_main_v1_apply]
  show (∑ k : Fin 4096, x0 (lidx_main_v0 i k) * x1 (ridx_main_v0 i k)) + x2 (idx_main_v1 (idx_main_v2 i)) = _
  refine congrArg₂ (· + ·) (Finset.sum_congr rfl fun k _ => ?_) (at1_of_idx (n := 4096) x2 _ _ rfl)
  exact congrArg₂ (· * ·) (at2_of_idx (n0 := 8192) (n1 := 4096) x0 _ _ _ rfl rfl)
    (at2_of_idx (n0 := 4096) (n1 := 4096) x1 _ _ _ rfl rfl)

end Cert.Linear.Ref

end
-- ==== Proof.Payload.lean ====
/-
  The kernel body's three stored values, read at an index over the extended reals.

  The first store is the zero block. The second is the accumulator plus the product of the point's two input blocks:
  at row p, column q the accumulator's entry plus the sum over the 512 contracted positions k of
  a[p, k] * b[k, q]. The third adds the bias row to every row: at (p, q) the entry plus v[0, q].
-/
import proofs.«169974_j17927193493896_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Linear.Payload

open Idealize.ShloMosaic Idealize.ShloMosaic.ValueIdx Cert.KernelIdeal Cert.KernelIdeal.Gen

/-- The reset value is zero everywhere. -/
theorem zero_block (y : S2048x1024.Idx) : k0_pay1 (F := Ideal) y = 0 := by
  unfold k0_pay1
  show Ideal.ofBits .f32 0x00000000#32 = 0
  exact Ideal.ofBits_zero_f32

/-- The product's left operand index keeps the output's row ... -/
theorem lhs_row (i : S2048x1024.Idx) (r : dot_S2048x512_S512x1024_S2048x1024_1_0_0_1_n_n.contr.Idx) :
    (dot_S2048x512_S512x1024_S2048x1024_1_0_0_1_n_n.lhsIdx i r 0).val = (i 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl
/-- ... and takes the contracted position as its column. -/
theorem lhs_col (i : S2048x1024.Idx) (r : dot_S2048x512_S512x1024_S2048x1024_1_0_0_1_n_n.contr.Idx) :
    (dot_S2048x512_S512x1024_S2048x1024_1_0_0_1_n_n.lhsIdx i r 1).val = (r ⟨0, by decide⟩).val :=
  dot_S2048x512_S512x1024_S2048x1024_1_0_0_1_n_n.lhsIdx_val_of_single rfl i r
/-- The product's right operand index takes the contracted position as its row ... -/
theorem rhs_row (i : S2048x1024.Idx) (r : dot_S2048x512_S512x1024_S2048x1024_1_0_0_1_n_n.contr.Idx) :
    (dot_S2048x512_S512x1024_S2048x1024_1_0_0_1_n_n.rhsIdx i r 0).val = (r ⟨0, by decide⟩).val :=
  dot_S2048x512_S512x1024_S2048x1024_1_0_0_1_n_n.rhsIdx_val_of_single rfl i r
/-- ... and keeps the output's column. -/
theorem rhs_col (i : S2048x1024.Idx) (r : dot_S2048x512_S512x1024_S2048x1024_1_0_0_1_n_n.contr.Idx) :
    (dot_S2048x512_S512x1024_S2048x1024_1_0_0_1_n_n.rhsIdx i r 1).val = (i 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- The product's left operand index at output (p, q) and contracted position k: row p, column k. -/
theorem dot_lhs (p : Fin 2048) (q : Fin 1024) (k : Fin 512) :
    dot_S2048x512_S512x1024_S2048x1024_1_0_0_1_n_n.lhsIdx (ix2 p q) ((contrEquiv1 dot_S2048x512_S512x1024_S2048x1024_1_0_0_1_n_n 512 rfl rfl).symm k) = ix2 p k := by
  have hk := contrEquiv1_symm_val dot_S2048x512_S512x1024_S2048x1024_1_0_0_1_n_n 512 rfl rfl k
  exact funext fun a => Fin.ext (by
    match a with
    | ⟨0, _⟩ => exact lhs_row _ _
    | ⟨1, _⟩ => exact (lhs_col _ _).trans hk)

/-- The product's right operand index at output (p, q) and contracted position k: row k, column q. -/
theorem dot_rhs (p : Fin 2048) (q : Fin 1024) (k : Fin 512) :
    dot_S2048x512_S512x1024_S2048x1024_1_0_0_1_n_n.rhsIdx (ix2 p q) ((contrEquiv1 dot_S2048x512_S512x1024_S2048x1024_1_0_0_1_n_n 512 rfl rfl).symm k) = ix2 k q := by
  have hk := contrEquiv1_symm_val dot_S2048x512_S512x1024_S2048x1024_1_0_0_1_n_n 512 rfl rfl k
  exact funext fun a => Fin.ext (by
    match a with
    | ⟨0, _⟩ => exact (rhs_row _ _).trans hk
    | ⟨1, _⟩ => exact rhs_col _ _)

/-- The accumulating store at (p, q): the accumulator's entry plus the blocks' product there. -/
theorem accumulate (acc : FVec Ideal S2048x1024 .f32) (a : FVec Ideal S2048x512 .f32) (b : FVec Ideal S512x1024 .f32)
    (p : Fin 2048) (q : Fin 1024) :
    k0_pay2 (F := Ideal) acc a b (ix2 p q) = acc (ix2 p q) + ∑ k : Fin 512, a (ix2 p k) * b (ix2 k q) := by
  unfold k0_pay2
  show shapeCast S2048x1024 acc shapeCasts_S2048x1024_S2048x1024 (ix2 p q)
      + FloatOps.matmul dot_S2048x512_S512x1024_S2048x1024_1_0_0_1_n_n (some .fp32) a b (constant S2048x1024 .f32 0x00000000#32) (ix2 p q) = _
  refine congrArg₂ (· + ·) (congrFun (shapeCast_self acc _) _) ?_
  refine (Ideal.matmul_constant_zero_apply _ _ a b (ix2 p q)).trans ?_
  rw [← Equiv.sum_comp (contrEquiv1 dot_S2048x512_S512x1024_S2048x1024_1_0_0_1_n_n 512 rfl rfl).symm]
  exact Finset.sum_congr rfl fun k _ => by rw [dot_lhs, dot_rhs]

/-- The closing store at (p, q): the entry plus the bias row's entry of column q. -/
theorem add_bias (acc : FVec Ideal S2048x1024 .f32) (v : FVec Ideal S1x1024 .f32) (p : Fin 2048) (q : Fin 1024) :
    k0_pay3 (F := Ideal) acc v (ix2 p q) = acc (ix2 p q) + v (ix2 (0 : Fin 1) q) := by
  unfold k0_pay3
  show shapeCast S2048x1024 acc shapeCasts_S2048x1024_S2048x1024 (ix2 p q)
      + broadcastTo S2048x1024 (shapeCast S1x1024 v shapeCasts_S1x1024_S1x1024) broadcasts_S1x1024_S2048x1024 (ix2 p q) = _
  refine congrArg₂ (· + ·) (congrFun (shapeCast_self acc _) _) ?_
  rw [shapeCast_self]
  exact broadcastTo_apply v broadcasts_S1x1024_S2048x1024 (ix2 p q) (ix2 (0 : Fin 1) q) (fun a => match a with
    | ⟨0, _⟩ => by show (0 : ℕ) = if (1 : ℕ) = 1 then 0 else p.val; rw [if_pos rfl]
    | ⟨1, _⟩ => by show q.val = if (1024 : ℕ) = 1 then 0 else q.val; rw [if_neg (by decide)])

end Cert.Linear.Payload

end
-- ==== Proof.Blocks.lean ====
/-
  The kernel's input blocks at a grid point, read at an index.

  The grid has 4 x 4 x 8 points, numbered row-major: point t has output-row block t / 32, output-column block
  (t / 8) mod 4 and contraction block t mod 8. At point t the left operand's block is rows 2048 (t / 32) .. of x and
  columns 512 (t mod 8) ..; the right operand's block is rows 512 (t mod 8) .. of W and columns 1024 ((t / 8) mod 4) ..;
  the bias block is columns 1024 ((t / 8) mod 4) .. of the bias, which the host has reshaped to one row before the
  region is entered.
-/
import proofs.«169974_j17927193493896_2_alg».proof.Proof.Gen.KernelIdeal.Frame.Runs
import proofs.«169974_j17927193493896_2_alg».proof.Proof.LibBlockedSum
import Idealize.ShloMosaic.Lib.StableHlo.Run
import Idealize.ShloMosaic.Lib.Pipeline.Value

noncomputable section

namespace Cert.Linear.Blocks

open Cert.BlockedSum
open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- The three input windows' block indices at point t, decided over the grid. -/
theorem block_indices : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4 :=
  (by decide +kernel : ∀ t : Fin grid0.N, _)

/-- The left operand's block at point t, at row p and column k of the block. -/
theorem left_block (c : Dev nD) (t : Fin cfg0.N) (p : Fin 2048) (k : Fin 512) :
    (iblk m c 0 t : Vec Ideal S2048x512 .f32) (ix2 p k)
      = at2 (n0 := 8192) (n1 := 4096) (m ((c : Thread nD τ).loc main_arg0))
          (2048 * (t.val / 32) + p.val) (512 * (t.val % 8) + k.val) := by
  obtain ⟨e0, e1, -⟩ := block_indices t
  show V m c main_arg0 (((cfg0.win 0).blk t).view.emb (ix2 p k)) = _
  rw [V_main_arg0]
  refine at2_of_idx (n0 := 8192) (n1 := 4096) _ _ _ _ ?_ ?_
  · show win0_0.index t (0 : Fin 2) * 2048 + 1 * p.val = _
    rw [e0]; omega
  · show win0_0.index t (1 : Fin 2) * 512 + 1 * k.val = _
    rw [e1]; omega

/-- The right operand's block at point t, at row k and column q of the block. -/
theorem right_block (c : Dev nD) (t : Fin cfg0.N) (k : Fin 512) (q : Fin 1024) :
    (iblk m c 1 t : Vec Ideal S512x1024 .f32) (ix2 k q)
      = at2 (n0 := 4096) (n1 := 4096) (m ((c : Thread nD τ).loc main_arg1))
          (512 * (t.val % 8) + k.val) (1024 * (t.val / 8 % 4) + q.val) := by
  obtain ⟨-, -, e0, e1, -⟩ := block_indices t
  show V m c main_arg1 (((cfg0.win 1).blk t).view.emb (ix2 k q)) = _
  rw [V_main_arg1]
  refine at2_of_idx (n0 := 4096) (n1 := 4096) _ _ _ _ ?_ ?_
  · show win0_1.index t (0 : Fin 2) * 512 + 1 * k.val = _
    rw [e0]; omega
  · show win0_1.index t (1 : Fin 2) * 1024 + 1 * q.val = _
    rw [e1]; omega

/-- The bias as the region finds it: the host's reshape of the bias vector to one row. -/
theorem bias_row_array (c : Dev nD) :
    (V m c main_v0 : FVec Ideal S1x4096 .f32)
      = shapeCast S1x4096 (m ((c : Thread nD τ).loc main_arg2)) shapeCasts_S4096_S1x4096 := by
  dsimp only [V, hostOps0]
  after_results
  rfl

/-- A vector reshaped to one row, read at an index: the vector at the index's column. -/
theorem row_of_vector (x : FVec Ideal S4096 .f32) (j : S1x4096.Idx) :
    shapeCast S1x4096 x shapeCasts_S4096_S1x4096 j = at1 (n := 4096) x (j 1).val := by
  have h0 : (j 0).val < 1 := idx2_lt0 j
  refine (shapeCast_apply x shapeCasts_S4096_S1x4096 j (ix1 ⟨(j 1).val, idx2_lt1 j⟩) ?_).trans
    (at1_of_idx (n := 4096) x _ _ rfl)
  rw [Shape.rowMajor_val_one, Shape.rowMajor_val_two]
  show (j 1).val = (j 0).val * 4096 + (j 1).val
  omega

/-- The bias block at point t, at column q of the block. -/
theorem bias_block (c : Dev nD) (t : Fin cfg0.N) (q : Fin 1024) :
    (iblk m c 2 t : Vec Ideal S1x1024 .f32) (ix2 (0 : Fin 1) q)
      = at1 (n := 4096) (m ((c : Thread nD τ).loc main_arg2)) (1024 * (t.val / 8 % 4) + q.val) := by
  obtain ⟨-, -, -, -, -, e1⟩ := block_indices t
  show V m c main_v0 (((cfg0.win 2).blk t).view.emb (ix2 (0 : Fin 1) q)) = _
  rw [bias_row_array, row_of_vector]
  refine congrArg (at1 (n := 4096) _) ?_
  show win0_2.index t (1 : Fin 2) * 1024 + 1 * q.val = _
  rw [e1]; omega

end Cert.Linear.Blocks

end
-- ==== Proof.Fold.lean ====
/-
  The kernel's result array at an index.

  The output block of rows 2048 a .. and columns 1024 b .. is written by the run of eight consecutive grid points
  8 r .. 8 r + 7 with r = 4 a + b: the first point stores zero plus the product of its two input blocks, each later
  point adds the product of its own blocks, and the last point then adds the bias row. Point n of the run contributes,
  at place (p', q') of the block, the sum over the 512 positions k of its contraction block of
  x[2048 a + p', 512 (n mod 8) + k] * W[512 (n mod 8) + k, 1024 b + q']. So the array ends, at (p, q), at zero plus the
  sum over the eight contraction blocks of those partial contractions, plus bias[q].
-/
import proofs.«169974_j17927193493896_2_alg».proof.Proof.Gen.KernelIdeal.Value
import proofs.«169974_j17927193493896_2_alg».proof.Proof.Payload
import proofs.«169974_j17927193493896_2_alg».proof.Proof.Blocks

noncomputable section

namespace Cert.Linear.Fold

open Cert.BlockedSum
open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The three argument arrays at natural coordinates. -/
abbrev X (c : Dev nD) : ℕ → ℕ → EReal := at2 (n0 := 8192) (n1 := 4096) (m ((c : Thread nD τ).loc main_arg0))
abbrev Wt (c : Dev nD) : ℕ → ℕ → EReal := at2 (n0 := 4096) (n1 := 4096) (m ((c : Thread nD τ).loc main_arg1))
abbrev Bias (c : Dev nD) : ℕ → EReal := at1 (n := 4096) (m ((c : Thread nD τ).loc main_arg2))

/-- What point n contributes at place y of its output block: the contraction over its own 512 positions. -/
def addend (c : Dev nD) (n : ℕ) (y : S2048x1024.Idx) : EReal :=
  ∑ k : Fin 512, X m c (2048 * (n / 32) + (y 0).val) (512 * (n % 8) + k.val)
    * Wt m c (512 * (n % 8) + k.val) (1024 * (n / 8 % 4) + (y 1).val)

/-- The product of point n's two input blocks (a, b) at (p, q) is that contribution. -/
theorem product_at (c : Dev nD) (n : ℕ) (h : n < cfg0.N) (a : FVec Ideal S2048x512 .f32) (b : FVec Ideal S512x1024 .f32)
    (ha : a = iblk m c 0 ⟨n, h⟩) (hb : b = iblk m c 1 ⟨n, h⟩) (p : Fin 2048) (q : Fin 1024) :
    ∑ k : Fin 512, a (ix2 p k) * b (ix2 k q) = addend m c n (ix2 p q) := by
  subst ha; subst hb
  unfold addend
  exact Finset.sum_congr rfl fun k _ =>
    congrArg₂ (· * ·) (Blocks.left_block m c ⟨n, h⟩ p k) (Blocks.right_block m c ⟨n, h⟩ k q)

/-- The run's first point leaves zero plus its contribution. -/
theorem reset_at (c : Dev nD) (n : ℕ) (h : n < cfg0.N) (y : S2048x1024.Idx) :
    Value.reset3 m c n h y = 0 + addend m c n y := by
  obtain ⟨p, q, rfl⟩ : ∃ (p : Fin 2048) (q : Fin 1024), y = ix2 p q := ⟨y 0, y 1, eq_ix2 y⟩
  unfold Value.reset3
  exact (Payload.accumulate _ (iblk m c 0 ⟨n, h⟩) (iblk m c 1 ⟨n, h⟩) p q).trans
    (congrArg₂ (· + ·) (Payload.zero_block _) (product_at m c n h _ _ rfl rfl p q))

/-- A middle point of the run adds its contribution to what the point before left. -/
theorem step_mid (c : Dev nD) (n : ℕ) (h : n < cfg0.N) (hn0 : ¬n % 8 = 0) (hn7 : ¬n % 8 = 7)
    (acc : Vec Ideal S2048x1024 .f32) (y : S2048x1024.Idx) :
    Value.step3 m c n h acc y = acc y + addend m c n y := by
  obtain ⟨p, q, rfl⟩ : ∃ (p : Fin 2048) (q : Fin 1024), y = ix2 p q := ⟨y 0, y 1, eq_ix2 y⟩
  unfold Value.step3
  rw [if_pos ⟨hn0, hn7⟩]
  exact (Payload.accumulate acc (iblk m c 0 ⟨n, h⟩) (iblk m c 1 ⟨n, h⟩) p q).trans
    (congrArg (acc (ix2 p q) + ·) (product_at m c n h _ _ rfl rfl p q))

/-- The run's last point adds its contribution and then the bias of its column block. -/
theorem step_last (c : Dev nD) (n : ℕ) (h : n < cfg0.N) (hn7 : n % 8 = 7)
    (acc : Vec Ideal S2048x1024 .f32) (y : S2048x1024.Idx) :
    Value.step3 m c n h acc y = (acc y + addend m c n y) + Bias m c (1024 * (n / 8 % 4) + (y 1).val) := by
  obtain ⟨p, q, rfl⟩ : ∃ (p : Fin 2048) (q : Fin 1024), y = ix2 p q := ⟨y 0, y 1, eq_ix2 y⟩
  have hn0 : ¬n % 8 = 0 := by omega
  unfold Value.step3
  rw [if_neg (fun hh => hh.2 hn7), if_pos ⟨hn0, hn7⟩]
  refine (Payload.add_bias _ (iblk m c 2 ⟨n, h⟩) p q).trans ?_
  exact congrArg₂ (· + ·)
    ((Payload.accumulate acc (iblk m c 0 ⟨n, h⟩) (iblk m c 1 ⟨n, h⟩) p q).trans
      (congrArg (acc (ix2 p q) + ·) (product_at m c n h _ _ rfl rfl p q)))
    (Blocks.bias_block m c ⟨n, h⟩ q)

/-- The whole run 8 r .. 8 r + 7 at place y: zero plus the eight contributions, plus the bias. -/
theorem run_at (c : Dev nD) (r : ℕ) (h : 8 * r + 7 < cfg0.N) (y : S2048x1024.Idx) :
    Pipeline.accAt (Value.reset3 m c) (Value.step3 m c) (8 * r) 7 h y
      = (0 + ∑ s ∈ Finset.range 8, addend m c (8 * r + s) y) + Bias m c (1024 * (r % 4) + (y 1).val) := by
  have h6 : 8 * r + 6 < cfg0.N := by omega
  have e6 := Pipeline.accAt_add_apply (Value.reset3 m c) (Value.step3 m c) (fun _ => (0 : EReal)) (addend m c) (8 * r) 6
    (fun h y => reset_at m c (8 * r) h y)
    (fun n h acc y h1 h2 => step_mid m c n h (by omega) (by omega) acc y) 6 le_rfl h6 y
  show Value.step3 m c (8 * r + 7) h (Pipeline.accAt (Value.reset3 m c) (Value.step3 m c) (8 * r) 6 h6) y = _
  rw [step_last m c (8 * r + 7) h (by omega), e6]
  have e8 : ∑ s ∈ Finset.range 8, addend m c (8 * r + s) y
      = ∑ s ∈ Finset.range 7, addend m c (8 * r + s) y + addend m c (8 * r + 7) y := Finset.sum_range_succ _ 7
  have eb : (8 * r + 7) / 8 % 4 = r % 4 := by omega
  rw [e8, eb]
  show ((0 + ∑ s ∈ Finset.range 7, addend m c (8 * r + s) y) + addend m c (8 * r + 7) y) + _ = _
  rw [add_assoc (0 : EReal)]

/-- The kernel's result array at (p, q): zero plus, block by block along the contraction, the partial contractions of
    row p of x with column q of W, plus bias[q]. -/
theorem result_apply (c : Dev nD) (i : S8192x4096.Idx) :
    Value.G3 (F := Ideal) m c i
      = (0 + ∑ s ∈ Finset.range 8, ∑ k : Fin 512,
            X m c (i 0).val (512 * s + k.val) * Wt m c (512 * s + k.val) (i 1).val)
        + Bias m c (i 1).val := by
  have hp : (i 0).val < 8192 := idx2_lt0 i
  have hq : (i 1).val < 4096 := idx2_lt1 i
  have hN : cfg0.N = 128 := N_0
  have hr : 8 * Value.run3Of i + 7 < cfg0.N := by
    rw [hN]
    show 8 * (4 * ((i 0).val / 2048 - 0) + 1 * ((i 1).val / 1024 - 0)) + 7 < 128
    omega
  unfold Value.G3
  rw [dif_pos hr, run_at m c (Value.run3Of i) hr (Value.loc3Of i)]
  refine congrArg₂ (· + ·) (congrArg (0 + ·) (Finset.sum_congr rfl fun s hs => ?_)) (congrArg (Bias m c) ?_)
  · have hs' : s < 8 := Finset.mem_range.mp hs
    unfold addend
    refine Finset.sum_congr rfl fun k _ => ?_
    have a1 : 2048 * ((8 * Value.run3Of i + s) / 32) + (Value.loc3Of i 0).val = (i 0).val := by
      show 2048 * ((8 * (4 * ((i 0).val / 2048 - 0) + 1 * ((i 1).val / 1024 - 0)) + s) / 32) + (i 0).val % 2048 = (i 0).val
      omega
    have a2 : (8 * Value.run3Of i + s) % 8 = s := by omega
    have a3 : 1024 * ((8 * Value.run3Of i + s) / 8 % 4) + (Value.loc3Of i 1).val = (i 1).val := by
      show 1024 * ((8 * (4 * ((i 0).val / 2048 - 0) + 1 * ((i 1).val / 1024 - 0)) + s) / 8 % 4) + (i 1).val % 1024 = (i 1).val
      omega
    rw [a1, a2, a3]
  · show 1024 * ((4 * ((i 0).val / 2048 - 0) + 1 * ((i 1).val / 1024 - 0)) % 4) + (i 1).val % 1024 = (i 1).val
    omega

end Cert.Linear.Fold

end
-- ==== Proof.lean ====
/-
  A dense linear layer: out = x W + bias, with x of 8192 x 4096, W of 4096 x 4096 and bias of 4096 entries.

  The kernel tiles the output into 4 x 4 blocks of 2048 x 1024 and the contracted axis into eight blocks of 512. Each
  output block is held in place over the eight grid points of its run: the first point stores zero plus the product of
  its blocks of x and W, each later point adds its own product, and the last point then adds the bias row. The
  reference is one contraction over all 4096 positions, plus the bias.

  Over the extended reals the two agree entry by entry. At (p, q) the kernel's entry is

      (0 + sum over the eight blocks s of (sum over k < 512 of x[p, 512 s + k] * W[512 s + k, q])) + bias[q]

  and the reference's is (sum over k < 4096 of x[p, k] * W[k, q]) + bias[q]. A sum over 4096 consecutive terms is the
  sum of its eight consecutive blocks of 512 terms; this uses only that + is associative and commutative with unit 0,
  which holds on the extended reals whatever the entries are, so finiteness of the inputs is never used. The ideal
  pass rewrote nothing in the kernel, so the kernel is its own idealization.

  The kernel's side is read off its generated run and fold (each output block after a run as the eight-step fold of
  its points), the reference's off its generated run read one operation at a time; what is shown here is that the two
  terms are one function of the arguments.
-/
import proofs.«169974_j17927193493896_2_alg».proof.Defs
import proofs.«169974_j17927193493896_2_alg».proof.Proof.Gen.Kernel.Frame
import proofs.«169974_j17927193493896_2_alg».proof.Proof.Gen.KernelIdeal.Value
import proofs.«169974_j17927193493896_2_alg».proof.Proof.Gen.Pre_finite_inputs
import proofs.«169974_j17927193493896_2_alg».proof.Proof.Gen.ReferenceIdeal.Run
import proofs.«169974_j17927193493896_2_alg».proof.Proof.RefRead
import proofs.«169974_j17927193493896_2_alg».proof.Proof.Fold
import Idealize.ShloMosaic.Adequacy
import Idealize.ShloMosaic.Init

noncomputable section

namespace Cert.Proof

open Idealize.ShloMosaic Idealize.SL.Sem

/-- Every execution of the idealized kernel terminates without a fault and leaves its arguments as they were: its
    run, with what it says of the result dropped. -/
theorem frame_KernelIdeal : frame_KernelIdeal := fun m ρ _ =>
  (θ_run Cert.KernelIdeal.defs _ _).mono (fun _ h c => (h c).2) (Cert.KernelIdeal.Value.run (F := Ideal) m ρ)

/-- The same for the reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x, W and bias both programs end with the same result array: entry (p, q) of the
    reference is the whole contraction plus bias[q], which is the sum of its eight blocks plus bias[q], which is the
    kernel's entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  exact (Cert.Linear.Ref.result_apply _ _ _ i).trans
    ((Cert.BlockedSum.blocked_contraction (Cert.Linear.Fold.X m c) (Cert.Linear.Fold.Wt m c) (Cert.Linear.Fold.Bias m c)
        (i 0).val (i 1).val 512 8 4096 rfl).symm.trans
      (Cert.Linear.Fold.result_apply m c i).symm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
